-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x128 : Shape := ⟨2, ![128, 128]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x96 .f32) (main_arg1 : IVec S2x800000 32) (main_arg2 : FVec F S96x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x128 .f32 := Host.absf main_arg2
  let main_cst_0 : FVec F S_ .f32 := constant S_ .f32 0x7F800000#32
  let main_v5 : FVec F S96x128 .f32 := broadcastInDim S96x128 ![] bcast_S_S96x128 main_cst_0
  let main_v6 : IVec S96x128 1 := cmpf .olt main_v4 main_v5
  let main_c_1 : IVec S_ 1 := constantI S_ 1 1#1
  let main_v7 : IVec S_ 1 := (fun x v => Host.reduce IntOp.andi x v reducesTo_S96x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x128 : Shape := ⟨2, ![1, 128]⟩
abbrev S50000x128 : Shape := ⟨2, ![50000, 128]⟩
abbrev S5000x96 : Shape := ⟨2, ![5000, 96]⟩
abbrev S5000x128 : Shape := ⟨2, ![5000, 128]⟩
abbrev S800000x128 : Shape := ⟨2, ![800000, 128]⟩

abbrev nBuf : Space → Nat
  | .hbm => 50
  | .vmem => 20
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x96, .f32⟩
  | .hbm, ⟨23, _⟩ => ⟨S_, .f32⟩
  | .hbm, ⟨24, _⟩ => ⟨S50000x96, .f32⟩
  | .hbm, ⟨25, _⟩ => ⟨S800000x1, .i32⟩
  | .hbm, ⟨26, _⟩ => ⟨S50000x96, .f32⟩
  | .hbm, ⟨27, _⟩ => ⟨S96x128, .bf16⟩
  | .hbm, ⟨28, _⟩ => ⟨S128x128, .bf16⟩
  | .hbm, ⟨29, _⟩ => ⟨S1x128, .f32⟩
  | .hbm, ⟨30, _⟩ => ⟨S1x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S128x128, .bf16⟩
  | .hbm, ⟨46, _⟩ => ⟨S128x128, .bf16⟩
  | .hbm, ⟨47, _⟩ => ⟨S1x128, .f32⟩
  | .hbm, ⟨48, _⟩ => ⟨S1x128, .f32⟩
  | .hbm, ⟨49, _⟩ => ⟨S50000x128, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bitsLt_bf16_f32 : FTy.bits .bf16 < FTy.bits .f32
  shapeCasts_S128_S1x128 : S128.ShapeCasts S1x128
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x128_S96x128_0_0 : ∀ a, (![0, 0] : Fin 2 → Nat) a + S96x128.size a ≤ S96x128.size a
  h_S96x128 : 0 < S96x128.numel
  shapeCasts_S96x128_S96x128 : S96x128.ShapeCasts S96x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x128_S5000x128_1_0_0_1_n_n_wf : DotDims.WF S5000x96 S96x128 S5000x128 [1] [0] [0] [1] [] []
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x128.size a ≤ S96x128.size a
  hwx0_2 : ∀ i : grid0.Coords, EltTy.bits .bf16 = 32 ∨ (Rect.block (s := S96x128) S96x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x128_S5000x128_1_0_0_1_n_n : DotDims S5000x96 S96x128 S5000x128 where
  lhsContracting := [1]
  rhsContracting := [0]
  lhsNonContracting := [0]
  rhsNonContracting := [1]
  lhsBatch := []
  rhsBatch := []
  wf := dot_S5000x96_S96x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S96x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000x128 : Shape := ⟨2, ![50000, 128]⟩
abbrev S1x128 : Shape := ⟨2, ![1, 128]⟩
abbrev S800000x128 : Shape := ⟨2, ![800000, 128]⟩

abbrev nBuf : Space → Nat
  | .hbm => 76
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x96, .f32⟩
  | .hbm, ⟨23, _⟩ => ⟨S_, .f32⟩
  | .hbm, ⟨24, _⟩ => ⟨S50000x96, .f32⟩
  | .hbm, ⟨25, _⟩ => ⟨S800000x1, .i32⟩
  | .hbm, ⟨26, _⟩ => ⟨S50000x96, .f32⟩
  | .hbm, ⟨27, _⟩ => ⟨S50000x96, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_call2_cst : Ref sig .tc := ⟨.hbm, 42, rfl⟩
abbrev main_call2_v0 : Ref sig .tc := ⟨.hbm, 43, rfl⟩
abbrev main_v25 : Ref sig .tc := ⟨.hbm, 44, rfl⟩
abbrev main_c_1 : Ref sig .tc := ⟨.hbm, 45, rfl⟩
abbrev main_v26 : Ref sig .tc := ⟨.hbm, 46, rfl⟩
abbrev main_v27 : Ref sig .tc := ⟨.hbm, 47, rfl⟩
abbrev main_c_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call3_cst : Ref sig .tc := ⟨.hbm, 63, rfl⟩
abbrev main_call3_v0 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call4_cst : Ref sig .tc := ⟨.hbm, 70, rfl⟩
abbrev main_call4_v0 : Ref sig .tc := ⟨.hbm, 71, rfl⟩
abbrev main_v46 : Ref sig .tc := ⟨.hbm, 72, rfl⟩
abbrev main_call5_cst : Ref sig .tc := ⟨.hbm, 73, rfl⟩
abbrev main_call5_v0 : Ref sig .tc := ⟨.hbm, 74, rfl⟩
abbrev main_v47 : Ref sig .tc := ⟨.hbm, 75, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x128_S50000x128_1_0_0_1_n_n_wf : DotDims.WF S50000x96 S96x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized-or-not kernel program's run with its result buffer NAMED.

  The program is four segments: a stretch of host operations, the first layer's row-blocked region, a second stretch of
  host operations, the second layer's region. The buffer contents at the segment boundaries form a fold from the launch
  memory: `W1` after the first stretch, `W2` after the first region (its arrays at what the write-backs leave), `W3`
  after the second stretch, `W4` after the second region. Every weakly fair execution terminates, faults nowhere, and ends
  with every unscoped buffer at `W4`; read at the result buffer that is the statement below, and read at the ten
  arguments it is that they end as launched. Nothing here says yet WHAT `W4` holds at the result: that is read off the
  fold in the modules that follow.
-/
import proofs.«176508_j87230785782146_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates without a fault; the result
    buffer ends at the last boundary's contents `W4` and the ten argument arrays end as launched. -/
theorem run_named : θ_run defs (onTc (τ := τ) (main (F := F))) ⟨m, fun _ => 0, ρ⟩ (fun r => ∀ c : Dev nD,
      r.2.mem ((c.tc : Thread nD τ).loc main_v33) = W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v33 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Named

end
-- ==== Proof.Layer.lean ====
/-
  One graph-isomorphism layer read at an index, on the extended reals.

  A layer takes the node features `x` and their neighbourhood sums `agg` (both M×K), adds them, and applies a two-stage
  perceptron: first `max ((x + agg) · wa + ba) z`, then `max (· wb + bb) z`, where `z` is the fixed threshold of the
  rectifier (zero in the programs; no property of `z` is used). Written index by index: the entry at row `r`, column `c`
  is a sum over the hidden units `q` of the hidden activation of row `r` at `q` times `wb (q, c)`, plus `bb c`, rectified.

  Two facts carry the whole comparison of a row-blocked evaluation with a whole-array one:
  * a row of the result depends only on the same row of `x` and of `agg` (`layer_row`), so a block of rows of the
    result is the layer of the blocks of rows;
  * the result is already rectified, so rectifying it again changes nothing (`max_layer`).
-/
import Idealize.ShloMosaic.PureOps.Ideal.Laws
import Idealize.ShloMosaic.Lib.ValueIdx

noncomputable section

namespace Cert.Gin

open Idealize.ShloMosaic Idealize.ShloMosaic.ValueIdx

/-- The rectifier's threshold in the programs: their zero word, read on the extended reals (never evaluated). -/
abbrev z0 : EReal := Ideal.ofBits .f32 0x00000000#32

/-- An `a × b` matrix of extended reals, indexed as the programs' rank-2 arrays are. -/
abbrev Mat (a b : Nat) : Type := (⟨2, ![a, b]⟩ : Shape).Idx → EReal

/-- The hidden activation of row `r` at hidden unit `q`: `max (∑ k, (x (r,k) + agg (r,k)) · wa (k,q) + ba q) z`. -/
def hidden (M K N : Nat) (z : EReal) (x agg : Mat M K) (wa : Mat K N) (ba : Fin N → EReal) (r : Fin M) (q : Fin N) : EReal :=
  max ((∑ k : Fin K, (x (ix2 r k) + agg (ix2 r k)) * wa (ix2 k q)) + ba q) z

/-- One layer: `max (∑ q, hidden (r, q) · wb (q, c) + bb c) z` at `(r, c)`. -/
def layer (M K N : Nat) (z : EReal) (x agg : Mat M K) (wa : Mat K N) (ba : Fin N → EReal) (wb : Mat N N) (bb : Fin N → EReal) :
    Mat M N :=
  fun j => max ((∑ q : Fin N, hidden M K N z x agg wa ba (j 0) q * wb (ix2 q (j 1))) + bb (j 1)) z

/-- A hidden activation depends only on its own row of the features and of the neighbourhood sums. -/
theorem hidden_row {M M' K N : Nat} (z : EReal) (x agg : Mat M K) (x' agg' : Mat M' K) (wa : Mat K N) (ba : Fin N → EReal)
    (r : Fin M) (r' : Fin M') (hx : ∀ k : Fin K, x (ix2 r k) = x' (ix2 r' k)) (ha : ∀ k : Fin K, agg (ix2 r k) = agg' (ix2 r' k))
    (q : Fin N) : hidden M K N z x agg wa ba r q = hidden M' K N z x' agg' wa ba r' q := by
  unfold hidden
  simp only [hx, ha]

/-- A row of a layer's result depends only on the same row of the features and of the neighbourhood sums: row `r` of the
    layer of `x, agg` is row `r'` of the layer of `x', agg'` whenever those rows of the inputs agree. -/
theorem layer_row {M M' K N : Nat} (z : EReal) (x agg : Mat M K) (x' agg' : Mat M' K) (wa : Mat K N) (ba : Fin N → EReal)
    (wb : Mat N N) (bb : Fin N → EReal) (r : Fin M) (r' : Fin M') (c : Fin N)
    (hx : ∀ k : Fin K, x (ix2 r k) = x' (ix2 r' k)) (ha : ∀ k : Fin K, agg (ix2 r k) = agg' (ix2 r' k)) :
    layer M K N z x agg wa ba wb bb (ix2 r c) = layer M' K N z x' agg' wa ba wb bb (ix2 r' c) := by
  show max ((∑ q : Fin N, hidden M K N z x agg wa ba r q * wb (ix2 q c)) + bb c) z
    = max ((∑ q : Fin N, hidden M' K N z x' agg' wa ba r' q * wb (ix2 q c)) + bb c) z
  simp only [hidden_row z x agg x' agg' wa ba r r' hx ha]

/-- A layer's result is already rectified: the rectifier applied to it is the identity. -/
theorem max_layer (M K N : Nat) (z : EReal) (x agg : Mat M K) (wa : Mat K N) (ba : Fin N → EReal) (wb : Mat N N)
    (bb : Fin N → EReal) (j : (⟨2, ![M, N]⟩ : Shape).Idx) :
    max (layer M K N z x agg wa ba wb bb j) z = layer M K N z x agg wa ba wb bb j :=
  max_eq_left (le_max_right _ _)

/-- The same as a statement about arrays: rectifying a layer's result entry by entry gives the result back. -/
theorem max_layer_fun (M K N : Nat) (z : EReal) (x agg : Mat M K) (wa : Mat K N) (ba : Fin N → EReal) (wb : Mat N N)
    (bb : Fin N → EReal) :
    (fun j => max (layer M K N z x agg wa ba wb bb j) z) = layer M K N z x agg wa ba wb bb :=
  funext fun j => max_layer M K N z x agg wa ba wb bb j

end Cert.Gin

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.Payload.lean ====
/-
  The row-blocked body's stored value is one layer of its loaded blocks, entry by entry.

  Both layers' bodies are the same term of their loaded blocks up to the contraction width of the first product, so the
  reading is done once, for a width K: the term is named, read at an entry through the two matrix products, and only
  then identified with each body's printed value (after the casts between equal shapes, which are the identity).
-/
import proofs.«176508_j87230785782146_2_alg».proof.Proof.Gen.KernelIdeal.Skeleton
import proofs.«176508_j87230785782146_2_alg».proof.Proof.Layer
import proofs.«176508_j87230785782146_2_alg».proof.Proof.LibPlainDot
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Named

open Cert.KernelIdeal Cert.KernelIdeal.Gen
open Idealize.ShloMosaic Idealize.ShloMosaic.ValueIdx

/-- A row vector of shape [1, N] broadcast down M rows, read at (p, q), is its entry q. -/
theorem rowBroadcast_apply (M N : Nat) (b : FVec Ideal (⟨2, ![1, N]⟩ : Shape) .f32)
    (h : (⟨2, ![1, N]⟩ : Shape).Broadcasts (⟨2, ![M, N]⟩ : Shape)) (hN : N ≠ 1) (p : Fin M) (q : Fin N) :
    broadcastTo (⟨2, ![M, N]⟩ : Shape) b h (ix2 p q) = b (ix2 0 q) :=
  broadcastTo_apply b h (ix2 p q) (ix2 0 q) (fun a => by
    match a with
    | ⟨0, _⟩ => rfl
    | ⟨1, _⟩ => exact (if_neg hN).symm)

/-- The body's value as one term of its six loaded blocks (the casts between equal shapes already removed): two
    matrix products into zero accumulators, each followed by the broadcast bias and the rectifier, with the roundings
    to the narrow format in between. The contraction width K of the first product is the only thing that differs
    between the two layers. -/
def body (K : Nat) (hb : (⟨2, ![1, 128]⟩ : Shape).Broadcasts (⟨2, ![5000, 128]⟩ : Shape)) (ht : FTy.bits .bf16 < FTy.bits .f32)
    (x agg : FVec Ideal (⟨2, ![5000, K]⟩ : Shape) .f32) (wa : FVec Ideal (⟨2, ![K, 128]⟩ : Shape) .bf16)
    (ba : FVec Ideal (⟨2, ![1, 128]⟩ : Shape) .f32) (wb : FVec Ideal (⟨2, ![128, 128]⟩ : Shape) .bf16)
    (bb : FVec Ideal (⟨2, ![1, 128]⟩ : Shape) .f32) : FVec Ideal (⟨2, ![5000, 128]⟩ : Shape) .f32 :=
  maximumf
    (addf
      (FloatOps.matmul (DotDims.plain 5000 128 128) none
        (truncf .bf16
          (maximumf
            (addf
              (FloatOps.matmul (DotDims.plain 5000 K 128) none (truncf .bf16 (addf x agg) ht) wa
                (constant (F := Ideal) (⟨2, ![5000, 128]⟩ : Shape) .f32 0x00000000#32))
              (broadcastTo (⟨2, ![5000, 128]⟩ : Shape) ba hb))
            (broadcast (⟨2, ![5000, 128]⟩ : Shape) (Scalar.ofBits (F := Ideal) .f32 0x00000000#32)))
          ht)
        wb (constant (F := Ideal) (⟨2, ![5000, 128]⟩ : Shape) .f32 0x00000000#32))
      (broadcastTo (⟨2, ![5000, 128]⟩ : Shape) bb hb))
    (broadcast (⟨2, ![5000, 128]⟩ : Shape) (Scalar.ofBits (F := Ideal) .f32 0x00000000#32))

/-- The first stage at (p, k): the rounded, rectified, biased product is the hidden activation of row p at unit k.
    On the extended reals the roundings are the identity, the sum and the maximum act entry by entry, the product into
    the zero accumulator is the contraction sum, and the broadcast bias is the bias's entry k. -/
theorem stage1_apply (K : Nat) (hb : (⟨2, ![1, 128]⟩ : Shape).Broadcasts (⟨2, ![5000, 128]⟩ : Shape)) (ht : FTy.bits .bf16 < FTy.bits .f32)
    (x agg : FVec Ideal (⟨2, ![5000, K]⟩ : Shape) .f32) (wa : FVec Ideal (⟨2, ![K, 128]⟩ : Shape) .bf16)
    (ba : FVec Ideal (⟨2, ![1, 128]⟩ : Shape) .f32) (p : Fin 5000) (k : Fin 128) :
    (truncf .bf16
          (maximumf
            (addf
              (FloatOps.matmul (DotDims.plain 5000 K 128) none (truncf .bf16 (addf x agg) ht) wa
                (constant (F := Ideal) (⟨2, ![5000, 128]⟩ : Shape) .f32 0x00000000#32))
              (broadcastTo (⟨2, ![5000, 128]⟩ : Shape) ba hb))
            (broadcast (⟨2, ![5000, 128]⟩ : Shape) (Scalar.ofBits (F := Ideal) .f32 0x00000000#32)))
          ht : FVec Ideal (⟨2, ![5000, 128]⟩ : Shape) .bf16) (ix2 p k)
      = Cert.Gin.hidden 5000 K 128 Cert.Gin.z0 x agg wa (fun q => ba (ix2 0 q)) p k := by
  unfold Cert.Gin.hidden
  show max (FloatOps.matmul (DotDims.plain 5000 K 128) none (truncf .bf16 (addf x agg) ht) wa
                (constant (F := Ideal) (⟨2, ![5000, 128]⟩ : Shape) .f32 0x00000000#32) (ix2 p k)
            + broadcastTo (⟨2, ![5000, 128]⟩ : Shape) ba hb (ix2 p k)) Cert.Gin.z0 = _
  exact congrArg₂ (fun a b : EReal => max (a + b) Cert.Gin.z0)
    (Cert.PlainDot.matmul_zero_apply 5000 K 128 (φ₁ := .bf16) (φ₂ := .bf16) none (truncf .bf16 (addf x agg) ht) wa (ix2 p k))
    (rowBroadcast_apply 5000 128 ba hb (by decide) p k)

/-- The body's value is the layer of its loaded blocks: at (p, q) the second product is the sum over the hidden units
    of the first stage's entry times the second weight, and the first stage's entry is the hidden activation. -/
theorem body_eq_layer (K : Nat) (hb : (⟨2, ![1, 128]⟩ : Shape).Broadcasts (⟨2, ![5000, 128]⟩ : Shape)) (ht : FTy.bits .bf16 < FTy.bits .f32)
    (x agg : FVec Ideal (⟨2, ![5000, K]⟩ : Shape) .f32) (wa : FVec Ideal (⟨2, ![K, 128]⟩ : Shape) .bf16)
    (ba : FVec Ideal (⟨2, ![1, 128]⟩ : Shape) .f32) (wb : FVec Ideal (⟨2, ![128, 128]⟩ : Shape) .bf16)
    (bb : FVec Ideal (⟨2, ![1, 128]⟩ : Shape) .f32) :
    body K hb ht x agg wa ba wb bb
      = Cert.Gin.layer 5000 K 128 Cert.Gin.z0 x agg wa (fun q => ba (ix2 0 q)) wb (fun q => bb (ix2 0 q)) := by
  funext j
  obtain ⟨p, q, rfl⟩ : ∃ (p : Fin 5000) (q : Fin 128), j = ix2 p q := ⟨j 0, j 1, eq_ix2 j⟩
  unfold body Cert.Gin.layer
  show max (FloatOps.matmul (DotDims.plain 5000 128 128) none _ wb
                (constant (F := Ideal) (⟨2, ![5000, 128]⟩ : Shape) .f32 0x00000000#32) (ix2 p q)
            + broadcastTo (⟨2, ![5000, 128]⟩ : Shape) bb hb (ix2 p q)) Cert.Gin.z0
      = max ((∑ k : Fin 128, Cert.Gin.hidden 5000 K 128 Cert.Gin.z0 x agg wa (fun q => ba (ix2 0 q)) p k * wb (ix2 k q)) + bb (ix2 0 q)) Cert.Gin.z0
  refine congrArg₂ (fun a b : EReal => max (a + b) Cert.Gin.z0) ?_ (rowBroadcast_apply 5000 128 bb hb (by decide) p q)
  refine (Cert.PlainDot.matmul_zero_apply 5000 128 128 (φ₁ := .bf16) (φ₂ := .bf16) none _ wb (ix2 p q)).trans ?_
  exact Finset.sum_congr rfl fun k _ => congrArg (· * wb (ix2 k q)) (stage1_apply K hb ht x agg wa ba p k)

/-- The first layer's stored value (contraction width 96) is the layer of its loaded blocks. -/
theorem pay0_apply (v0 v1 : Vec Ideal S5000x96 .f32) (v5 : Vec Ideal S96x128 .bf16) (v8 : Vec Ideal S1x128 .f32)
    (v15 : Vec Ideal S128x128 .bf16) (v18 : Vec Ideal S1x128 .f32) :
    k0_pay1 (F := Ideal) v0 v1 v5 v8 v15 v18
      = Cert.Gin.layer 5000 96 128 Cert.Gin.z0 v0 v1 v5 (fun q => v8 (ix2 0 q)) v15 (fun q => v18 (ix2 0 q)) := by
  have e : k0_pay1 (F := Ideal) v0 v1 v5 v8 v15 v18
      = body 96 broadcasts_S1x128_S5000x128 bitsLt_bf16_f32 v0 (shapeCast S5000x96 v1 shapeCasts_S5000x96_S5000x96)
          (shapeCast S96x128 v5 shapeCasts_S96x128_S96x128) (shapeCast S1x128 v8 shapeCasts_S1x128_S1x128)
          (shapeCast S128x128 v15 shapeCasts_S128x128_S128x128) (shapeCast S1x128 v18 shapeCasts_S1x128_S1x128) := rfl
  have h1 : shapeCast S5000x96 v1 shapeCasts_S5000x96_S5000x96 = v1 := shapeCast_self v1 _
  have h5 : shapeCast S96x128 v5 shapeCasts_S96x128_S96x128 = v5 := shapeCast_self v5 _
  have h8 : shapeCast S1x128 v8 shapeCasts_S1x128_S1x128 = v8 := shapeCast_self v8 _
  have h15 : shapeCast S128x128 v15 shapeCasts_S128x128_S128x128 = v15 := shapeCast_self v15 _
  have h18 : shapeCast S1x128 v18 shapeCasts_S1x128_S1x128 = v18 := shapeCast_self v18 _
  rw [e, h1, h5, h8, h15, h18]
  exact body_eq_layer 96 broadcasts_S1x128_S5000x128 bitsLt_bf16_f32 v0 v1 v5 v8 v15 v18

/-- The second layer's stored value (contraction width 128) is the layer of its loaded blocks. -/
theorem pay1_apply (v0 v2 : Vec Ideal S5000x128 .f32) (v6 : Vec Ideal S128x128 .bf16) (v9 : Vec Ideal S1x128 .f32)
    (v16 : Vec Ideal S128x128 .bf16) (v19 : Vec Ideal S1x128 .f32) :
    k1_pay1 (F := Ideal) v0 v2 v6 v9 v16 v19
      = Cert.Gin.layer 5000 128 128 Cert.Gin.z0 v0 v2 v6 (fun q => v9 (ix2 0 q)) v16 (fun q => v19 (ix2 0 q)) := by
  have e : k1_pay1 (F := Ideal) v0 v2 v6 v9 v16 v19
      = body 128 broadcasts_S1x128_S5000x128 bitsLt_bf16_f32 (shapeCast S5000x128 v0 shapeCasts_S5000x128_S5000x128)
          (shapeCast S5000x128 v2 shapeCasts_S5000x128_S5000x128)
          (shapeCast S128x128 v6 shapeCasts_S128x128_S128x128) (shapeCast S1x128 v9 shapeCasts_S1x128_S1x128)
          (shapeCast S128x128 v16 shapeCasts_S128x128_S128x128) (shapeCast S1x128 v19 shapeCasts_S1x128_S1x128) := rfl
  have h0 : shapeCast S5000x128 v0 shapeCasts_S5000x128_S5000x128 = v0 := shapeCast_self v0 _
  have h2 : shapeCast S5000x128 v2 shapeCasts_S5000x128_S5000x128 = v2 := shapeCast_self v2 _
  have h6 : shapeCast S128x128 v6 shapeCasts_S128x128_S128x128 = v6 := shapeCast_self v6 _
  have h9 : shapeCast S1x128 v9 shapeCasts_S1x128_S1x128 = v9 := shapeCast_self v9 _
  have h16 : shapeCast S128x128 v16 shapeCasts_S128x128_S128x128 = v16 := shapeCast_self v16 _
  have h19 : shapeCast S1x128 v19 shapeCasts_S1x128_S1x128 = v19 := shapeCast_self v19 _
  rw [e, h0, h2, h6, h9, h16, h19]
  exact body_eq_layer 128 broadcasts_S1x128_S5000x128 bitsLt_bf16_f32 v0 v2 v6 v9 v16 v19

end Cert.KernelIdeal.Named

end
-- ==== Proof.Region0.lean ====
/-
  What the first layer's row-blocked region leaves in its output array: one layer of the arrays it reads, whole.
-/
import proofs.«176508_j87230785782146_2_alg».proof.Proof.Gen.KernelIdeal.Frame
import proofs.«176508_j87230785782146_2_alg».proof.Proof.Payload
import proofs.«176508_j87230785782146_2_alg».proof.Proof.Layer
import Idealize.ShloMosaic.Lib.Pipeline.Value
import Idealize.ShloMosaic.Lib.ValueIdx

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The zero block offset, however it is spelt. -/
theorem zero_off0 : (![0, 0] : Fin 2 → Nat) = fun _ => 0 := funext fun a => by fin_cases a <;> rfl

/-- The index maps over the grid: the two feature windows and the output window move with the point along the rows,
    the weight and bias windows stay at block (0, 0). -/
theorem index_maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A row block of a layer is the layer of the row blocks: entry `y` of the layer of the blocks `xb`, `ab` is entry `i`
    of the layer of the whole arrays `X`, `A` when row `y 0` of the blocks is row `i 0` of the arrays and the columns agree. -/
theorem layer_of_row_block0 (X A : Cert.Gin.Mat 50000 96) (xb ab : Cert.Gin.Mat 5000 96) (wa : Cert.Gin.Mat 96 128)
    (ba : Fin 128 → EReal) (wb : Cert.Gin.Mat 128 128) (bb : Fin 128 → EReal) (y : S5000x128.Idx) (i : S50000x128.Idx)
    (hx : ∀ k : Fin 96, xb (ix2 (y 0) k) = X (ix2 (i 0) k)) (ha : ∀ k : Fin 96, ab (ix2 (y 0) k) = A (ix2 (i 0) k))
    (h1 : i 1 = y 1) :
    Cert.Gin.layer 5000 96 128 Cert.Gin.z0 xb ab wa ba wb bb y = Cert.Gin.layer 50000 96 128 Cert.Gin.z0 X A wa ba wb bb i :=
  calc Cert.Gin.layer 5000 96 128 Cert.Gin.z0 xb ab wa ba wb bb y
      = Cert.Gin.layer 5000 96 128 Cert.Gin.z0 xb ab wa ba wb bb (ix2 (y 0) (y 1)) := congrArg _ (eq_ix2 y)
    _ = Cert.Gin.layer 50000 96 128 Cert.Gin.z0 X A wa ba wb bb (ix2 (i 0) (y 1)) :=
        Cert.Gin.layer_row Cert.Gin.z0 xb ab X A wa ba wb bb (y 0) (i 0) (y 1) hx ha
    _ = Cert.Gin.layer 50000 96 128 Cert.Gin.z0 X A wa ba wb bb i := congrArg _ (by rw [← h1]; exact (eq_ix2 i).symm)

section Blocks

variable (V : (c : Dev nD) → (b : Ref sig .tc) → Buf (Elt Ideal) ((c : Thread nD τ).loc b)) (c : Dev nD)

/-- Block `t` of the node features is rows `5000 t … 5000 t + 4999` of the array. -/
theorem feat_block0 (t : Fin cfg0.N) (y : S5000x96.Idx) (i : S50000x96.Idx)
    (h0 : (i 0).val = 5000 * t.val + (y 0).val) (h1 : (i 1).val = (y 1).val) :
    (iblk0 (F := Ideal) V c 0 t : Vec Ideal S5000x96 .f32) y = (V c main_arg0 : S50000x96.Idx → EReal) i := by
  obtain ⟨e0, e1, -⟩ := index_maps0 t
  unfold iblk0
  show V c main_arg0 (((cfg0.win 0).blk t).view.emb y) = V c main_arg0 i
  refine congrArg (V c main_arg0) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 96 + 1 * (y 1).val = (i 1).val; rw [e1, h1]; omega

/-- Block `t` of the neighbourhood sums is the same rows of their array. -/
theorem agg_block0 (t : Fin cfg0.N) (y : S5000x96.Idx) (i : S50000x96.Idx)
    (h0 : (i 0).val = 5000 * t.val + (y 0).val) (h1 : (i 1).val = (y 1).val) :
    (iblk0 (F := Ideal) V c 1 t : Vec Ideal S5000x96 .f32) y = (V c main_v13 : S50000x96.Idx → EReal) i := by
  obtain ⟨-, -, e0, e1, -⟩ := index_maps0 t
  unfold iblk0
  show V c main_v13 (((cfg0.win 1).blk t).view.emb y) = V c main_v13 i
  refine congrArg (V c main_v13) (funext fun a => Fin.ext ?_)
  match a with
  | ⟨0, _⟩ => show win0_1.index t (0 : Fin 2) * 5000 + 1 * (y 0).val = (i 0).val; rw [e0, h0]; omega
  | ⟨1, _⟩ => show win0_1.index t (1 : Fin 2) * 96 + 1 * (y 1).val = (i 1).val; rw [e1, h1]; omega

/-- The first weight matrix's one block is the matrix. -/
theorem wa_block0 (t : Fin cfg0.N) :
    (iblk0 (F := Ideal) V c 2 t : Vec Ideal S96x128 .bf16) = (V c main_v14 : S96x128.Idx → EReal) := by
  obtain ⟨-, -, -, -, e0, e1, -⟩ := index_maps0 t
  unfold iblk0
  funext y
  show V c main_v14 (((cfg0.win 2).blk t).view.emb y) = V c main_v14 y
  refine congrArg (V c main_v14) (funext fun a => Fin.ext ?_)
  match a with
  | ⟨0, _⟩ => show win0_2.index t (0 : Fin 2) * 96 + 1 * (y 0).val = (y 0).val; rw [e0]; omega
  | ⟨1, _⟩ => show win0_2.index t (1 : Fin 2) * 128 + 1 * (y 1).val = (y 1).val; rw [e1]; omega

/-- The first bias row's one block is the row. -/
theorem ba_block0 (t : Fin cfg0.N) :
    (iblk0 (F := Ideal) V c 3 t : Vec Ideal S1x128 .f32) = (V c main_v16 : S1x128.Idx → EReal) := by
  obtain ⟨-, -, -, -, -, -, e0, e1, -⟩ := index_maps0 t
  unfold iblk0
  funext y
  show V c main_v16 (((cfg0.win 3).blk t).view.emb y) = V c main_v16 y
  refine congrArg (V c main_v16) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The second weight matrix's one block is the matrix. -/
theorem wb_block0 (t : Fin cfg0.N) :
    (iblk0 (F := Ideal) V c 4 t : Vec Ideal S128x128 .bf16) = (V c main_v15 : S128x128.Idx → EReal) := by
  obtain ⟨-, -, -, -, -, -, -, -, e0, e1, -⟩ := index_maps0 t
  unfold iblk0
  funext y
  show V c main_v15 (((cfg0.win 4).blk t).view.emb y) = V c main_v15 y
  refine congrArg (V c main_v15) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The second bias row's one block is the row. -/
theorem bb_block0 (t : Fin cfg0.N) :
    (iblk0 (F := Ideal) V c 5 t : Vec Ideal S1x128 .f32) = (V c main_v17 : S1x128.Idx → EReal) := by
  obtain ⟨-, -, -, -, -, -, -, -, -, -, e0, e1, -⟩ := index_maps0 t
  unfold iblk0
  funext y
  show V c main_v17 (((cfg0.win 5).blk t).view.emb y) = V c main_v17 y
  refine congrArg (V c main_v17) (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- The whole-array layer the region computes. -/
abbrev whole0 : Cert.Gin.Mat 50000 128 :=
  Cert.Gin.layer 50000 96 128 Cert.Gin.z0 (V c main_arg0) (V c main_v13) (V c main_v14) (fun q => V c main_v16 (ix2 0 q))
    (V c main_v15) (fun q => V c main_v17 (ix2 0 q))

/-- What point `t` writes back is block `t` of the whole-array layer. -/
theorem flushed0 (t : Fin cfg0.N) :
    (dat0 (F := Ideal) V c).flushed 6 t = ((cfg0.win 6).blk t).view.read (Elt Ideal) (whole0 V c) := by
  show (cfg0.win 6).cut (grid0.coords t) ((dat0 V c).after 6 t) = _
  rw [after0_6]
  unfold out0_6
  rw [View.canon_unit_zero zero_off0]
  simp only [View.ld_unit_zero (S := S5000x96) zero_off0, View.ld_unit_zero (S := S96x128) zero_off0,
    View.ld_unit_zero (S := S1x128) zero_off0, View.ld_unit_zero (S := S128x128) zero_off0]
  rw [pay0_apply, wa_block0 V c t, ba_block0 V c t, wb_block0 V c t, bb_block0 V c t]
  obtain ⟨-, -, -, -, -, -, -, -, -, -, -, -, e0, e1⟩ := index_maps0 t
  funext y
  have r0 : ((((cfg0.win 6).blk t).view.emb y) 0).val = 5000 * t.val + (y 0).val := by
    show win0_6.index t (0 : Fin 2) * 5000 + 1 * (y 0).val = _; rw [e0]; omega
  have r1 : (((cfg0.win 6).blk t).view.emb y) 1 = y 1 := Fin.ext (by
    show win0_6.index t (1 : Fin 2) * 128 + 1 * (y 1).val = _; rw [e1]; omega)
  exact layer_of_row_block0 (V c main_arg0) (V c main_v13) (iblk0 V c 0 t) (iblk0 V c 1 t) (V c main_v14)
    (fun q => V c main_v16 (ix2 0 q)) (V c main_v15) (fun q => V c main_v17 (ix2 0 q)) y (((cfg0.win 6).blk t).view.emb y)
    (fun k => feat_block0 V c t (ix2 (y 0) k) (ix2 ((((cfg0.win 6).blk t).view.emb y) 0) k) r0 rfl)
    (fun k => agg_block0 V c t (ix2 (y 0) k) (ix2 ((((cfg0.win 6).blk t).view.emb y) 0) k) r0 rfl) r1

/-- An index of the output array is in point `t`'s block iff each coordinate is in the block's range on its axis. -/
theorem mem_block0 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v18).slice (win0_6.rect t)).set ↔ _
  rw [View.set_slice_whole, Rect.mem_set_unit]
  exact Iff.rfl

/-- Every row of the output array is in the block of the point `row / 5000`. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hq : (i 0).val / 5000 < cfg0.N := lt_of_lt_of_eq (by omega : (i 0).val / 5000 < 10) N_0.symm
  obtain ⟨-, -, -, -, -, -, -, -, -, -, -, -, e0, e1⟩ := index_maps0 ⟨(i 0).val / 5000, hq⟩
  refine ⟨⟨(i 0).val / 5000, hq⟩, flush0_6 _, ?_⟩
  rw [mem_block0]
  intro a
  match a with
  | ⟨0, _⟩ =>
    show win0_6.index ⟨(i 0).val / 5000, hq⟩ (0 : Fin 2) * 5000 ≤ (i 0).val
      ∧ (i 0).val < win0_6.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hq⟩ (1 : Fin 2) * 128 ≤ (i 1).val
      ∧ (i 1).val < win0_6.index ⟨(i 0).val / 5000, hq⟩ (1 : Fin 2) * 128 + 128
    rw [e1]; omega

end Blocks

/-- After the region its output array is one layer of the arrays it read: every point writes its row block of that
    layer, and the ten row blocks tile the array. -/
theorem region0_value (V : (c : Dev nD) → (b : Ref sig .tc) → Buf (Elt Ideal) ((c : Thread nD τ).loc b)) (c : Dev nD) :
    (dat0 (F := Ideal) V c).arrAt 6 cfg0.N
      = Cert.Gin.layer 50000 96 128 Cert.Gin.z0 (V c main_arg0) (V c main_v13) (V c main_v14) (fun q => V c main_v16 (ix2 0 q))
          (V c main_v15) (fun q => V c main_v17 (ix2 0 q)) :=
  (dat0 (F := Ideal) V c).arrAt_eq_of_cover 6 (whole0 V c) (fun t _ => flushed0 V c t) cover0

end Cert.KernelIdeal.Named

end
-- ==== Proof.Region1.lean ====
/-
  What the second layer's row-blocked region leaves in its output array: one layer of the arrays it reads, whole.
-/
import proofs.«176508_j87230785782146_2_alg».proof.Proof.Gen.KernelIdeal.Frame
import proofs.«176508_j87230785782146_2_alg».proof.Proof.Payload
import proofs.«176508_j87230785782146_2_alg».proof.Proof.Layer
import Idealize.ShloMosaic.Lib.Pipeline.Value
import Idealize.ShloMosaic.Lib.ValueIdx

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The zero block offset, however it is spelt. -/
theorem zero_off1 : (![0, 0] : Fin 2 → Nat) = fun _ => 0 := funext fun a => by fin_cases a <;> rfl

/-- The index maps over the grid: the two feature windows and the output window move with the point along the rows,
    the weight and bias windows stay at block (0, 0). -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A row block of a layer is the layer of the row blocks: entry `y` of the layer of the blocks `xb`, `ab` is entry `i`
    of the layer of the whole arrays `X`, `A` when row `y 0` of the blocks is row `i 0` of the arrays and the columns agree. -/
theorem layer_of_row_block1 (X A : Cert.Gin.Mat 50000 128) (xb ab : Cert.Gin.Mat 5000 128) (wa : Cert.Gin.Mat 128 128)
    (ba : Fin 128 → EReal) (wb : Cert.Gin.Mat 128 128) (bb : Fin 128 → EReal) (y : S5000x128.Idx) (i : S50000x128.Idx)
    (hx : ∀ k : Fin 128, xb (ix2 (y 0) k) = X (ix2 (i 0) k)) (ha : ∀ k : Fin 128, ab (ix2 (y 0) k) = A (ix2 (i 0) k))
    (h1 : i 1 = y 1) :
    Cert.Gin.layer 5000 128 128 Cert.Gin.z0 xb ab wa ba wb bb y = Cert.Gin.layer 50000 128 128 Cert.Gin.z0 X A wa ba wb bb i :=
  calc Cert.Gin.layer 5000 128 128 Cert.Gin.z0 xb ab wa ba wb bb y
      = Cert.Gin.layer 5000 128 128 Cert.Gin.z0 xb ab wa ba wb bb (ix2 (y 0) (y 1)) := congrArg _ (eq_ix2 y)
    _ = Cert.Gin.layer 50000 128 128 Cert.Gin.z0 X A wa ba wb bb (ix2 (i 0) (y 1)) :=
        Cert.Gin.layer_row Cert.Gin.z0 xb ab X A wa ba wb bb (y 0) (i 0) (y 1) hx ha
    _ = Cert.Gin.layer 50000 128 128 Cert.Gin.z0 X A wa ba wb bb i := congrArg _ (by rw [← h1]; exact (eq_ix2 i).symm)

section Blocks

variable (V : (c : Dev nD) → (b : Ref sig .tc) → Buf (Elt Ideal) ((c : Thread nD τ).loc b)) (c : Dev nD)

/-- Block `t` of the node features is rows `5000 t … 5000 t + 4999` of the array. -/
theorem feat_block1 (t : Fin cfg1.N) (y : S5000x128.Idx) (i : S50000x128.Idx)
    (h0 : (i 0).val = 5000 * t.val + (y 0).val) (h1 : (i 1).val = (y 1).val) :
    (iblk1 (F := Ideal) V c 0 t : Vec Ideal S5000x128 .f32) y = (V c main_v18 : S50000x128.Idx → EReal) i := by
  obtain ⟨e0, e1, -⟩ := index_maps1 t
  unfold iblk1
  show V c main_v18 (((cfg1.win 0).blk t).view.emb y) = V c main_v18 i
  refine congrArg (V c main_v18) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- Block `t` of the neighbourhood sums is the same rows of their array. -/
theorem agg_block1 (t : Fin cfg1.N) (y : S5000x128.Idx) (i : S50000x128.Idx)
    (h0 : (i 0).val = 5000 * t.val + (y 0).val) (h1 : (i 1).val = (y 1).val) :
    (iblk1 (F := Ideal) V c 1 t : Vec Ideal S5000x128 .f32) y = (V c main_v28 : S50000x128.Idx → EReal) i := by
  obtain ⟨-, -, e0, e1, -⟩ := index_maps1 t
  unfold iblk1
  show V c main_v28 (((cfg1.win 1).blk t).view.emb y) = V c main_v28 i
  refine congrArg (V c main_v28) (funext fun a => Fin.ext ?_)
  match a with
  | ⟨0, _⟩ => show win1_1.index t (0 : Fin 2) * 5000 + 1 * (y 0).val = (i 0).val; rw [e0, h0]; omega
  | ⟨1, _⟩ => show win1_1.index t (1 : Fin 2) * 128 + 1 * (y 1).val = (i 1).val; rw [e1, h1]; omega

/-- The first weight matrix's one block is the matrix. -/
theorem wa_block1 (t : Fin cfg1.N) :
    (iblk1 (F := Ideal) V c 2 t : Vec Ideal S128x128 .bf16) = (V c main_v29 : S128x128.Idx → EReal) := by
  obtain ⟨-, -, -, -, e0, e1, -⟩ := index_maps1 t
  unfold iblk1
  funext y
  show V c main_v29 (((cfg1.win 2).blk t).view.emb y) = V c main_v29 y
  refine congrArg (V c main_v29) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The first bias row's one block is the row. -/
theorem ba_block1 (t : Fin cfg1.N) :
    (iblk1 (F := Ideal) V c 3 t : Vec Ideal S1x128 .f32) = (V c main_v31 : S1x128.Idx → EReal) := by
  obtain ⟨-, -, -, -, -, -, e0, e1, -⟩ := index_maps1 t
  unfold iblk1
  funext y
  show V c main_v31 (((cfg1.win 3).blk t).view.emb y) = V c main_v31 y
  refine congrArg (V c main_v31) (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The second weight matrix's one block is the matrix. -/
theorem wb_block1 (t : Fin cfg1.N) :
    (iblk1 (F := Ideal) V c 4 t : Vec Ideal S128x128 .bf16) = (V c main_v30 : S128x128.Idx → EReal) := by
  obtain ⟨-, -, -, -, -, -, -, -, e0, e1, -⟩ := index_maps1 t
  unfold iblk1
  funext y
  show V c main_v30 (((cfg1.win 4).blk t).view.emb y) = V c main_v30 y
  refine congrArg (V c main_v30) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The second bias row's one block is the row. -/
theorem bb_block1 (t : Fin cfg1.N) :
    (iblk1 (F := Ideal) V c 5 t : Vec Ideal S1x128 .f32) = (V c main_v32 : S1x128.Idx → EReal) := by
  obtain ⟨-, -, -, -, -, -, -, -, -, -, e0, e1, -⟩ := index_maps1 t
  unfold iblk1
  funext y
  show V c main_v32 (((cfg1.win 5).blk t).view.emb y) = V c main_v32 y
  refine congrArg (V c main_v32) (funext fun a => Fin.ext ?_)
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- The whole-array layer the region computes. -/
abbrev whole1 : Cert.Gin.Mat 50000 128 :=
  Cert.Gin.layer 50000 128 128 Cert.Gin.z0 (V c main_v18) (V c main_v28) (V c main_v29) (fun q => V c main_v31 (ix2 0 q))
    (V c main_v30) (fun q => V c main_v32 (ix2 0 q))

/-- What point `t` writes back is block `t` of the whole-array layer. -/
theorem flushed1 (t : Fin cfg1.N) :
    (dat1 (F := Ideal) V c).flushed 6 t = ((cfg1.win 6).blk t).view.read (Elt Ideal) (whole1 V c) := by
  show (cfg1.win 6).cut (grid1.coords t) ((dat1 V c).after 6 t) = _
  rw [after1_6]
  unfold out1_6
  rw [View.canon_unit_zero zero_off1]
  simp only [View.ld_unit_zero (S := S5000x128) zero_off1, View.ld_unit_zero (S := S128x128) zero_off1,
    View.ld_unit_zero (S := S1x128) zero_off1]
  rw [pay1_apply, wa_block1 V c t, ba_block1 V c t, wb_block1 V c t, bb_block1 V c t]
  obtain ⟨-, -, -, -, -, -, -, -, -, -, -, -, e0, e1⟩ := index_maps1 t
  funext y
  have r0 : ((((cfg1.win 6).blk t).view.emb y) 0).val = 5000 * t.val + (y 0).val := by
    show win1_6.index t (0 : Fin 2) * 5000 + 1 * (y 0).val = _; rw [e0]; omega
  have r1 : (((cfg1.win 6).blk t).view.emb y) 1 = y 1 := Fin.ext (by
    show win1_6.index t (1 : Fin 2) * 128 + 1 * (y 1).val = _; rw [e1]; omega)
  exact layer_of_row_block1 (V c main_v18) (V c main_v28) (iblk1 V c 0 t) (iblk1 V c 1 t) (V c main_v29)
    (fun q => V c main_v31 (ix2 0 q)) (V c main_v30) (fun q => V c main_v32 (ix2 0 q)) y (((cfg1.win 6).blk t).view.emb y)
    (fun k => feat_block1 V c t (ix2 (y 0) k) (ix2 ((((cfg1.win 6).blk t).view.emb y) 0) k) r0 rfl)
    (fun k => agg_block1 V c t (ix2 (y 0) k) (ix2 ((((cfg1.win 6).blk t).view.emb y) 0) k) r0 rfl) r1

/-- An index of the output array is in point `t`'s block iff each coordinate is in the block's range on its axis. -/
theorem mem_block1 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v33).slice (win1_6.rect t)).set ↔ _
  rw [View.set_slice_whole, Rect.mem_set_unit]
  exact Iff.rfl

/-- Every row of the output array is in the block of the point `row / 5000`. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hq : (i 0).val / 5000 < cfg1.N := lt_of_lt_of_eq (by omega : (i 0).val / 5000 < 10) N_1.symm
  obtain ⟨-, -, -, -, -, -, -, -, -, -, -, -, e0, e1⟩ := index_maps1 ⟨(i 0).val / 5000, hq⟩
  refine ⟨⟨(i 0).val / 5000, hq⟩, flush1_6 _, ?_⟩
  rw [mem_block1]
  intro a
  match a with
  | ⟨0, _⟩ =>
    show win1_6.index ⟨(i 0).val / 5000, hq⟩ (0 : Fin 2) * 5000 ≤ (i 0).val
      ∧ (i 0).val < win1_6.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hq⟩ (1 : Fin 2) * 128 ≤ (i 1).val
      ∧ (i 1).val < win1_6.index ⟨(i 0).val / 5000, hq⟩ (1 : Fin 2) * 128 + 128
    rw [e1]; omega

end Blocks

/-- After the region its output array is one layer of the arrays it read: every point writes its row block of that
    layer, and the ten row blocks tile the array. -/
theorem region1_value (V : (c : Dev nD) → (b : Ref sig .tc) → Buf (Elt Ideal) ((c : Thread nD τ).loc b)) (c : Dev nD) :
    (dat1 (F := Ideal) V c).arrAt 6 cfg1.N
      = Cert.Gin.layer 50000 128 128 Cert.Gin.z0 (V c main_v18) (V c main_v28) (V c main_v29) (fun q => V c main_v31 (ix2 0 q))
          (V c main_v30) (fun q => V c main_v32 (ix2 0 q)) :=
  (dat1 (F := Ideal) V c).arrAt_eq_of_cover 6 (whole1 V c) (fun t _ => flushed1 V c t) cover1

end Cert.KernelIdeal.Named

end
-- ==== Proof.Net.lean ====
/-
  The two-layer graph-isomorphism network as ONE function of the ten argument arrays, on the extended reals.

  The neighbourhood sum of a feature matrix `h` over the edge list `e` (row 0 the sources, row 1 the destinations) is the
  programs' own chain of host operations — a source index below zero is first shifted by the node count, the source rows
  are gathered, and the gathered rows are added into a zero matrix at the destination rows. Both programs spell that
  chain identically, so it is kept as a single unopened term (`agg96` for the 96-wide input features, `agg128` for the
  128-wide hidden features): nothing about which rows an edge names is needed, only that the two programs apply the same
  function to the same features.

  The network: `h = layer x (agg96 e x)` with the first pair of weight matrices and biases, then
  `layer h (agg128 e h)` with the second pair. The rectifier's threshold is the zero word of the programs, unevaluated.
-/
import proofs.«176508_j87230785782146_2_alg».proof.Proof.Layer
import proofs.«176508_j87230785782146_2_alg».proof.Proof.Gen.ReferenceIdeal.Read

noncomputable section

namespace Cert.Gin

open Idealize.ShloMosaic Idealize.ShloMosaic.ValueIdx Cert.ReferenceIdeal

/-- Neighbourhood sums of the 96-wide input features `x` over the edge list `e`: the host chain of the first
    aggregation, as one function of the features and the edge list. -/
def agg96 (e : IVec S2x800000 32) (x : FVec Ideal S50000x96 .f32) : FVec Ideal S50000x96 .f32 :=
  Read.val_main_v13 (F := Ideal) x e

/-- Neighbourhood sums of 128-wide features `h` over the edge list `e`: the host chain of the second aggregation with
    the features it gathers from as a variable. -/
def agg128 (e : IVec S2x800000 32) (h : FVec Ideal S50000x128 .f32) : FVec Ideal S50000x128 .f32 :=
  Host.scatterAdd scatter_S50000x128_S800000x1_S800000x128_1_0_0_1 (Read.val_main_v33 (F := Ideal)) (Read.val_main_v34 (F := Ideal) e)
    (Host.gather gather_S50000x128_S800000x1_S800000x128_1_0_n_n_0_1_1128 h (Read.val_main_v31 (F := Ideal) e))

/-- The first layer's output: the hidden node features. -/
def hid (x : FVec Ideal S50000x96 .f32) (e : IVec S2x800000 32) (w1a : FVec Ideal S96x128 .f32) (b1a : FVec Ideal S128 .f32)
    (w1b : FVec Ideal S128x128 .f32) (b1b : FVec Ideal S128 .f32) : FVec Ideal S50000x128 .f32 :=
  layer 50000 96 128 z0 x (agg96 e x) w1a (fun q => b1a (ix1 q)) w1b (fun q => b1b (ix1 q))

/-- The network's output as one function of the ten argument arrays. -/
def net (x : FVec Ideal S50000x96 .f32) (e : IVec S2x800000 32) (w1a : FVec Ideal S96x128 .f32) (b1a : FVec Ideal S128 .f32)
    (w1b : FVec Ideal S128x128 .f32) (b1b : FVec Ideal S128 .f32) (w2a : FVec Ideal S128x128 .f32) (b2a : FVec Ideal S128 .f32)
    (w2b : FVec Ideal S128x128 .f32) (b2b : FVec Ideal S128 .f32) : FVec Ideal S50000x128 .f32 :=
  layer 50000 128 128 z0 (hid x e w1a b1a w1b b1b) (agg128 e (hid x e w1a b1a w1b b1b)) w2a (fun q => b2a (ix1 q)) w2b
    (fun q => b2b (ix1 q))

end Cert.Gin

end
-- ==== Proof.Fold.lean ====
/-
  What the kernel program's result buffer holds at the end: the two-layer network of the launch contents of its ten
  arguments.

  The buffer contents at the program's segment boundaries are a fold from the launch memory: `W1` after the first
  stretch of host operations, `W2` after the first region, `W3` after the second stretch, `W4` after the second region.
  Read backwards from the result:
  * the second region leaves in its output array one layer of the six arrays it reads, as it found them (`W3`);
  * of those, the hidden features are what the first region left (no operation of the second stretch writes that
    array); their neighbourhood sums are the second stretch's gather and scatter-add of them over the edge list, whose
    source and destination rows were cut out of the edge argument by the first stretch and are untouched since; the
    weights are the arguments through a change of float format (the identity on the extended reals), the biases the
    arguments reshaped to one row;
  * the first region leaves one layer of the six arrays it reads (`W1`): the input features (an argument), their
    neighbourhood sums (the first stretch's gather and scatter-add), weights and biases as above.
-/
import proofs.«176508_j87230785782146_2_alg».proof.Proof.KernelRun
import proofs.«176508_j87230785782146_2_alg».proof.Proof.Region0
import proofs.«176508_j87230785782146_2_alg».proof.Proof.Region1
import proofs.«176508_j87230785782146_2_alg».proof.Proof.Net
import Idealize.ShloMosaic.Lib.StableHlo.Run
import Idealize.ShloMosaic.Lib.Pipeline.Value

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem
open Idealize.ShloMosaic.StableHlo (after_cons after_nil)

variable (m : (ℓ : Loc nD τ sig) → Buf (Elt Ideal) ℓ) (ρ : Dev nD → PrngReg) (c : Dev nD)

/-- A one-row reshape of a length-128 vector, read at column `q`. -/
theorem row_of_vec (b : FVec Ideal S128 .f32) (h : S128.ShapeCasts S1x128) (q : Fin 128) :
    shapeCast S1x128 b h (ix2 0 q) = b (ix1 q) :=
  shapeCast_apply b h (ix2 0 q) (ix1 q) (by
    rewrite [Shape.rowMajor_val_two, Shape.rowMajor_val_one]
    show q.val = 0 * 128 + q.val
    omega)

/-! ## The first stretch: what the first region finds -/

theorem entry0_x : V1 m ρ c main_arg0 = (m ((c.tc : Thread nD τ).loc main_arg0)) := by
  show StableHlo.after hostOps0 (W0 m ρ c) (Proc.devRef .tc main_arg0) = _
  after_results_simp <;> rfl

theorem entry0_agg : V1 m ρ c main_v13 = Cert.Gin.agg96 (m ((c.tc : Thread nD τ).loc main_arg1)) (m ((c.tc : Thread nD τ).loc main_arg0)) := by
  show StableHlo.after hostOps0 (W0 m ρ c) (Proc.devRef .tc main_v13) = _
  after_results_simp <;> rfl

theorem entry0_wa : V1 m ρ c main_v14 = (m ((c.tc : Thread nD τ).loc main_arg2)) := by
  show StableHlo.after hostOps0 (W0 m ρ c) (Proc.devRef .tc main_v14) = _
  after_results_simp <;> rfl

theorem entry0_wb : V1 m ρ c main_v15 = (m ((c.tc : Thread nD τ).loc main_arg4)) := by
  show StableHlo.after hostOps0 (W0 m ρ c) (Proc.devRef .tc main_v15) = _
  after_results_simp <;> rfl

theorem entry0_ba : V1 m ρ c main_v16 = shapeCast S1x128 (m ((c.tc : Thread nD τ).loc main_arg3)) Facts₀.shapeCasts_S128_S1x128 := by
  show StableHlo.after hostOps0 (W0 m ρ c) (Proc.devRef .tc main_v16) = _
  after_results_simp <;> rfl

theorem entry0_bb : V1 m ρ c main_v17 = shapeCast S1x128 (m ((c.tc : Thread nD τ).loc main_arg5)) Facts₀.shapeCasts_S128_S1x128 := by
  show StableHlo.after hostOps0 (W0 m ρ c) (Proc.devRef .tc main_v17) = _
  after_results_simp <;> rfl

/-- The first region's layer of what it finds is the hidden features of the arguments. -/
theorem entry0 :
    Cert.Gin.layer 50000 96 128 Cert.Gin.z0 (V1 m ρ c main_arg0) (V1 m ρ c main_v13) (V1 m ρ c main_v14)
        (fun q => V1 m ρ c main_v16 (ix2 0 q)) (V1 m ρ c main_v15) (fun q => V1 m ρ c main_v17 (ix2 0 q))
      = Cert.Gin.hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e3 : (fun q : Fin 128 => V1 m ρ c main_v16 (ix2 0 q)) = fun q => (m ((c.tc : Thread nD τ).loc main_arg3)) (ix1 q) :=
    funext fun q => by rw [entry0_ba m ρ c]; exact row_of_vec _ _ q
  have e5 : (fun q : Fin 128 => V1 m ρ c main_v17 (ix2 0 q)) = fun q => (m ((c.tc : Thread nD τ).loc main_arg5)) (ix1 q) :=
    funext fun q => by rw [entry0_bb m ρ c]; exact row_of_vec _ _ q
  rw [e3, e5, entry0_x m ρ c, entry0_agg m ρ c, entry0_wa m ρ c, entry0_wb m ρ c]
  rfl

/-- After the first region its output array holds the hidden features of the arguments. -/
theorem hidden_at_exit0 :
    W2 m ρ c (Proc.devRef .tc main_v18) = Cert.Gin.hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W2_arr m ρ c 6).trans ((region0_value (V1 m ρ) c).trans (entry0 m ρ c))

/-! ## Across the first region: what it does not touch -/

/-- The edge list's source row, cut out by the first stretch, is still there when the first region is left. -/
theorem src_at_exit0 : W2 m ρ c (Proc.devRef .tc main_v1) = Cert.ReferenceIdeal.Read.val_main_v1 (F := Ideal) (m ((c.tc : Thread nD τ).loc main_arg1)) :=
  (W2_of_ne m ρ c main_v1 (by decide)).trans (by
    show StableHlo.after hostOps0 (W0 m ρ c) (Proc.devRef .tc main_v1) = _
    after_results_simp <;> rfl)

/-- So is its destination row. -/
theorem dst_at_exit0 : W2 m ρ c (Proc.devRef .tc main_v3) = Cert.ReferenceIdeal.Read.val_main_v3 (F := Ideal) (m ((c.tc : Thread nD τ).loc main_arg1)) :=
  (W2_of_ne m ρ c main_v3 (by decide)).trans (by
    show StableHlo.after hostOps0 (W0 m ρ c) (Proc.devRef .tc main_v3) = _
    after_results_simp <;> rfl)

/-- Argument 6 is as launched when the first region is left: nothing before wrote it. -/
theorem arg6_at_exit0 : W2 m ρ c (Proc.devRef .tc main_arg6) = (m ((c.tc : Thread nD τ).loc main_arg6)) :=
  (W2_of_ne m ρ c main_arg6 (by decide)).trans (by
    show StableHlo.after hostOps0 (W0 m ρ c) (Proc.devRef .tc main_arg6) = _
    after_results_simp <;> rfl)

/-- Argument 7 is as launched when the first region is left: nothing before wrote it. -/
theorem arg7_at_exit0 : W2 m ρ c (Proc.devRef .tc main_arg7) = (m ((c.tc : Thread nD τ).loc main_arg7)) :=
  (W2_of_ne m ρ c main_arg7 (by decide)).trans (by
    show StableHlo.after hostOps0 (W0 m ρ c) (Proc.devRef .tc main_arg7) = _
    after_results_simp <;> rfl)

/-- Argument 8 is as launched when the first region is left: nothing before wrote it. -/
theorem arg8_at_exit0 : W2 m ρ c (Proc.devRef .tc main_arg8) = (m ((c.tc : Thread nD τ).loc main_arg8)) :=
  (W2_of_ne m ρ c main_arg8 (by decide)).trans (by
    show StableHlo.after hostOps0 (W0 m ρ c) (Proc.devRef .tc main_arg8) = _
    after_results_simp <;> rfl)

/-- Argument 9 is as launched when the first region is left: nothing before wrote it. -/
theorem arg9_at_exit0 : W2 m ρ c (Proc.devRef .tc main_arg9) = (m ((c.tc : Thread nD τ).loc main_arg9)) :=
  (W2_of_ne m ρ c main_arg9 (by decide)).trans (by
    show StableHlo.after hostOps0 (W0 m ρ c) (Proc.devRef .tc main_arg9) = _
    after_results_simp <;> rfl)

/-! ## The second stretch: what the second region finds -/

theorem entry1_h : V3 m ρ c main_v18 = W2 m ρ c (Proc.devRef .tc main_v18) := by
  show StableHlo.after hostOps1 (W2 m ρ c) (Proc.devRef .tc main_v18) = _
  after_results_simp <;> rfl

theorem entry1_agg : V3 m ρ c main_v28 = Cert.Gin.agg128 (m ((c.tc : Thread nD τ).loc main_arg1)) (W2 m ρ c (Proc.devRef .tc main_v18)) := by
  show StableHlo.after hostOps1 (W2 m ρ c) (Proc.devRef .tc main_v28) = _
  after_results_simp
  rw [src_at_exit0 m ρ c, dst_at_exit0 m ρ c]
  rfl

theorem entry1_wa : V3 m ρ c main_v29 = (m ((c.tc : Thread nD τ).loc main_arg6)) := by
  show StableHlo.after hostOps1 (W2 m ρ c) (Proc.devRef .tc main_v29) = _
  after_results_simp
  rw [arg6_at_exit0 m ρ c]
  rfl

theorem entry1_wb : V3 m ρ c main_v30 = (m ((c.tc : Thread nD τ).loc main_arg8)) := by
  show StableHlo.after hostOps1 (W2 m ρ c) (Proc.devRef .tc main_v30) = _
  after_results_simp
  rw [arg8_at_exit0 m ρ c]
  rfl

theorem entry1_ba : V3 m ρ c main_v31 = shapeCast S1x128 (m ((c.tc : Thread nD τ).loc main_arg7)) Facts₀.shapeCasts_S128_S1x128 := by
  show StableHlo.after hostOps1 (W2 m ρ c) (Proc.devRef .tc main_v31) = _
  after_results_simp
  rw [arg7_at_exit0 m ρ c]
  rfl

theorem entry1_bb : V3 m ρ c main_v32 = shapeCast S1x128 (m ((c.tc : Thread nD τ).loc main_arg9)) Facts₀.shapeCasts_S128_S1x128 := by
  show StableHlo.after hostOps1 (W2 m ρ c) (Proc.devRef .tc main_v32) = _
  after_results_simp
  rw [arg9_at_exit0 m ρ c]
  rfl

/-- The second region's layer of what it finds is the network of the arguments. -/
theorem entry1 :
    Cert.Gin.layer 50000 128 128 Cert.Gin.z0 (V3 m ρ c main_v18) (V3 m ρ c main_v28) (V3 m ρ c main_v29)
        (fun q => V3 m ρ c main_v31 (ix2 0 q)) (V3 m ρ c main_v30) (fun q => V3 m ρ c main_v32 (ix2 0 q))
      = Cert.Gin.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have e7 : (fun q : Fin 128 => V3 m ρ c main_v31 (ix2 0 q)) = fun q => (m ((c.tc : Thread nD τ).loc main_arg7)) (ix1 q) :=
    funext fun q => by rw [entry1_ba m ρ c]; exact row_of_vec _ _ q
  have e9 : (fun q : Fin 128 => V3 m ρ c main_v32 (ix2 0 q)) = fun q => (m ((c.tc : Thread nD τ).loc main_arg9)) (ix1 q) :=
    funext fun q => by rw [entry1_bb m ρ c]; exact row_of_vec _ _ q
  rw [e7, e9, entry1_h m ρ c, entry1_agg m ρ c, entry1_wa m ρ c, entry1_wb m ρ c, hidden_at_exit0 m ρ c]
  rfl

/-- THE RESULT: at the last boundary the result buffer holds the network of the launch contents of the arguments. -/
theorem result :
    W4 m ρ c (Proc.devRef .tc main_v33) = Cert.Gin.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W4_arr m ρ c 6).trans ((region1_value (V3 m ρ) c).trans (entry1 m ρ c))

end Cert.KernelIdeal.Named

end
-- ==== Proof.RefNet.lean ====
/-
  The reference program's result, stage by stage, is the two-layer network of its ten arguments.
-/
import proofs.«176508_j87230785782146_2_alg».proof.Proof.Net
import proofs.«176508_j87230785782146_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal
open Idealize.ShloMosaic Idealize.ShloMosaic.ValueIdx

/-- A bias vector spread over the rows of a 50000×128 array: the entry at `(r, c)` is `b c`. -/
theorem bias_at (b : FVec Ideal S128 .f32) (r : Fin 50000) (c : Fin 128) :
    Read.val_main_v17 (F := Ideal) b (ix2 r c) = b (ix1 c) :=
  (Read.val_main_v17_apply (F := Ideal) b (ix2 r c)).trans
    ((Read.val_main_v16_apply (F := Ideal) b _).trans
      (congrArg b (funext fun a => Fin.ext (by match a with | ⟨0, _⟩ => rfl))))

/-- The rectifier's threshold array: every entry is the zero word. -/
theorem zero_at (r : Fin 50000) (c : Fin 128) :
    Read.val_main_call0_v0 (F := Ideal) (ix2 r c) = Cert.Gin.z0 :=
  (Read.val_main_call0_v0_apply (F := Ideal) (ix2 r c)).trans (Read.val_main_call0_cst_apply (F := Ideal) _)

/-- One perceptron stage as the program spells it, over variable features `y` (50000×K): the matrix product
    `y · w`, the bias `b` added to every row, and the rectifier against the threshold array. -/
def stage (K : Nat) (y : FVec Ideal ⟨2, ![50000, K]⟩ .f32) (w : FVec Ideal ⟨2, ![K, 128]⟩ .f32)
    (b : FVec Ideal S128 .f32) : FVec Ideal S50000x128 .f32 :=
  maximumf (addf (Host.dotGeneral (DotDims.plain 50000 K 128) none y w) (Read.val_main_v17 (F := Ideal) b))
    (Read.val_main_call0_v0 (F := Ideal))

/-- A perceptron stage at an index: `max (∑ k, y (r, k) · w (k, c) + b c) z`. -/
theorem stage_at (K : Nat) (y : FVec Ideal ⟨2, ![50000, K]⟩ .f32) (w : FVec Ideal ⟨2, ![K, 128]⟩ .f32)
    (b : FVec Ideal S128 .f32) (r : Fin 50000) (c : Fin 128) :
    stage K y w b (ix2 r c) = max ((∑ k : Fin K, y (ix2 r k) * w (ix2 k c)) + b (ix1 c)) Cert.Gin.z0 := by
  show max (FloatOps.dotGeneral (DotDims.plain 50000 K 128) none .single y w (ix2 r c)
      + Read.val_main_v17 (F := Ideal) b (ix2 r c)) (Read.val_main_call0_v0 (F := Ideal) (ix2 r c)) = _
  rw [Cert.PlainDot.dotGeneral_apply, bias_at, zero_at]

/-- Two perceptron stages on `x + a` are one layer of `x` with neighbourhood sums `a`, index by index. -/
theorem layer_at (K : Nat) (x a : FVec Ideal ⟨2, ![50000, K]⟩ .f32) (wa : FVec Ideal ⟨2, ![K, 128]⟩ .f32)
    (ba : FVec Ideal S128 .f32) (wb : FVec Ideal S128x128 .f32) (bb : FVec Ideal S128 .f32)
    (r : Fin 50000) (c : Fin 128) :
    stage 128 (stage K (addf x a) wa ba) wb bb (ix2 r c)
      = Cert.Gin.layer 50000 K 128 Cert.Gin.z0 x a wa (fun q => ba (ix1 q)) wb (fun q => bb (ix1 q)) (ix2 r c) := by
  rw [stage_at]
  simp only [stage_at]
  rfl

/-- The same as arrays, with the rectifier applied once more: a layer's result is already rectified. -/
theorem layer_fun (K : Nat) (x a : FVec Ideal ⟨2, ![50000, K]⟩ .f32) (wa : FVec Ideal ⟨2, ![K, 128]⟩ .f32)
    (ba : FVec Ideal S128 .f32) (wb : FVec Ideal S128x128 .f32) (bb : FVec Ideal S128 .f32) :
    maximumf (stage 128 (stage K (addf x a) wa ba) wb bb) (Read.val_main_call0_v0 (F := Ideal))
      = Cert.Gin.layer 50000 K 128 Cert.Gin.z0 x a wa (fun q => ba (ix1 q)) wb (fun q => bb (ix1 q)) := by
  funext i
  obtain ⟨r, c, rfl⟩ : ∃ (r : Fin 50000) (c : Fin 128), i = ix2 r c := ⟨i 0, i 1, eq_ix2 i⟩
  show max (stage 128 (stage K (addf x a) wa ba) wb bb (ix2 r c)) (Read.val_main_call0_v0 (F := Ideal) (ix2 r c)) = _
  rw [layer_at, zero_at]
  exact Cert.Gin.max_layer 50000 K 128 Cert.Gin.z0 x a wa _ wb _ (ix2 r c)

/-- The reference's hidden features (its stage 25) are the first layer of the inputs. -/
theorem hid_ref (x0 : FVec Ideal S50000x96 .f32) (x1 : IVec S2x800000 32) (x2 : FVec Ideal S96x128 .f32)
    (x3 : FVec Ideal S128 .f32) (x4 : FVec Ideal S128x128 .f32) (x5 : FVec Ideal S128 .f32) :
    Read.val_main_v25 (F := Ideal) x0 x1 x2 x3 x4 x5 = Cert.Gin.hid x0 x1 x2 x3 x4 x5 :=
  layer_fun 96 x0 (Read.val_main_v13 (F := Ideal) x0 x1) x2 x3 x4 x5

/-- The reference's second aggregation is the neighbourhood sum of its hidden features. -/
theorem agg128_ref (x0 : FVec Ideal S50000x96 .f32) (x1 : IVec S2x800000 32) (x2 : FVec Ideal S96x128 .f32)
    (x3 : FVec Ideal S128 .f32) (x4 : FVec Ideal S128x128 .f32) (x5 : FVec Ideal S128 .f32) :
    Read.val_main_v35 (F := Ideal) x0 x1 x2 x3 x4 x5
      = Cert.Gin.agg128 x1 (Read.val_main_v25 (F := Ideal) x0 x1 x2 x3 x4 x5) := rfl

theorem ref_net (x0 : FVec Ideal S50000x96 .f32) (x1 : IVec S2x800000 32) (x2 : FVec Ideal S96x128 .f32) (x3 : FVec Ideal S128 .f32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) :
    Read.val_main_v47 (F := Ideal) x0 x1 x2 x3 x4 x5 x6 x7 x8 x9 = Cert.Gin.net x0 x1 x2 x3 x4 x5 x6 x7 x8 x9 := by
  refine (layer_fun 128 (Read.val_main_v25 (F := Ideal) x0 x1 x2 x3 x4 x5)
    (Read.val_main_v35 (F := Ideal) x0 x1 x2 x3 x4 x5) x6 x7 x8 x9).trans ?_
  rw [agg128_ref, hid_ref]
  rfl

end Cert.ReferenceIdeal.RefValue

end
-- ==== Proof.lean ====
/-
  A two-layer graph-isomorphism network: a row-blocked kernel against its plain reference, equal on the extended reals.

  Both programs compute, from node features `x` (50000 × 96), an edge list (2 × 800000) and two pairs of weight matrices
  with biases, first the hidden features `h = layer x (agg x)` and then the output `layer h (agg h)`, where `agg` sums each
  node's in-neighbours' rows (a gather along the source row of the edge list followed by a scatter-add along its
  destination row, spelt identically in both programs and never opened) and `layer u a` is the two-stage perceptron
  `max (max ((u + a) · wa + ba) 0 · wb + bb) 0` (Proof/Layer.lean).

  The kernel evaluates each layer in a region of ten grid points, each taking a block of 5000 rows of `u` and `a`, the
  whole weight matrices (through a change of float format, the identity on the extended reals) and the biases as single
  rows, and writing the same block of rows of the result. A row of a layer's result depends only on the same row of `u`
  and `a`, so the ten blocks written are the blocks of the whole-array layer, and they cover the array
  (Proof/Payload.lean, Proof/Region0.lean, Proof/Region1.lean). The program's run, with the result buffer named, is read
  back through its two stretches of host operations to the launch memory (Proof/KernelRun.lean, Proof/Fold.lean).

  The reference applies the rectifier once more after each layer; a layer's result is already rectified, so this changes
  nothing, and its matrix products are the same sums over the contracted index (Proof/RefNet.lean).

  No law used needs the inputs finite: the two sides are the same sums of the same products, term for term, so the
  precondition is never opened. The idealization rewrote no operation, so the kernel is its own idealization.
-/
import proofs.«176508_j87230785782146_2_alg».proof.Defs
import proofs.«176508_j87230785782146_2_alg».proof.Proof.Gen.Kernel
import proofs.«176508_j87230785782146_2_alg».proof.Proof.Gen.Kernel.Skeleton
import proofs.«176508_j87230785782146_2_alg».proof.Proof.Gen.Kernel.Launch
import proofs.«176508_j87230785782146_2_alg».proof.Proof.Gen.Kernel.Points
import proofs.«176508_j87230785782146_2_alg».proof.Proof.Gen.Kernel.Frame
import proofs.«176508_j87230785782146_2_alg».proof.Proof.Gen.KernelIdeal
import proofs.«176508_j87230785782146_2_alg».proof.Proof.Gen.KernelIdeal.Skeleton
import proofs.«176508_j87230785782146_2_alg».proof.Proof.Gen.KernelIdeal.Launch
import proofs.«176508_j87230785782146_2_alg».proof.Proof.Gen.KernelIdeal.Points
import proofs.«176508_j87230785782146_2_alg».proof.Proof.Gen.KernelIdeal.Frame
import proofs.«176508_j87230785782146_2_alg».proof.Proof.Gen.ReferenceIdeal
import proofs.«176508_j87230785782146_2_alg».proof.Proof.Gen.ReferenceIdeal.Run
import proofs.«176508_j87230785782146_2_alg».proof.Proof.Gen.ReferenceIdeal.Read
import proofs.«176508_j87230785782146_2_alg».proof.Proof.Gen.Pre_finite_inputs
import proofs.«176508_j87230785782146_2_alg».proof.Proof.KernelRun
import proofs.«176508_j87230785782146_2_alg».proof.Proof.Fold
import proofs.«176508_j87230785782146_2_alg».proof.Proof.RefNet
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- So does the same program read on the extended reals. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, from memories agreeing on the ten arguments, both programs end with the network of the
    arguments in their result buffers: the kernel by its run read back through the two regions, the reference by its run
    read stage by stage. -/
theorem algebraic : Cert.algebraic_KernelIdeal_ReferenceIdeal := by
  intro m ρ m' ρ' _ hagree
  refine ⟨fun c => Cert.Gin.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Named.result m ρ c), (h c).2⟩)
      (Cert.KernelIdeal.Named.run_named (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9⟩ := hagree c
    rw [(h c).1, Cert.ReferenceIdeal.Read.val_main_v47_eq, Cert.ReferenceIdeal.RefValue.ref_net,
      a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
